-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S32000000 : Shape := ⟨1, ![32000000]⟩
abbrev S1000000x7 : Shape := ⟨2, ![1000000, 7]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S32000000 : S_.BroadcastsInDim S32000000 (![] : Fin 0 → Fin S32000000.rank)
  reducesTo_S32000000_S_d0 : S32000000.ReducesTo [0] S_
  bcast_S_S1000000x7 : S_.BroadcastsInDim S1000000x7 (![] : Fin 0 → Fin S1000000x7.rank)
  reducesTo_S1000000x7_S_d0_1 : S1000000x7.ReducesTo [0, 1] S_

variable [Facts]

def fn {F : FTy → Type} [FloatOps F] (main_arg0 : FVec F S1000000 .f32) (main_arg1 : FVec F S32000000 .f32) (main_arg2 : FVec F S1000000x7 .f32) (main_arg3 : IVec S32000000 32) (main_arg4 : IVec S32000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S32000000 .f32 := Host.absf main_arg1
  let main_cst_0 : FVec F S_ .f32 := constant S_ .f32 0x7F800000#32
  let main_v5 : FVec F S32000000 .f32 := broadcastInDim S32000000 ![] bcast_S_S32000000 main_cst_0
  let main_v6 : IVec S32000000 1 := cmpf .olt main_v4 main_v5
  let main_c_1 : IVec S_ 1 := constantI S_ 1 1#1
  let main_v7 : IVec S_ 1 := (fun x v => Host.reduce IntOp.andi x v reducesTo_S32000000_S_d0 h_S_) main_v6 main_c_1
  let main_v8 : IVec S_ 1 := andi main_v3 main_v7
  let main_v9 : FVec F S1000000x7 .f32 := Host.absf main_arg2
  let main_cst_2 : FVec F S_ .f32 := constant S_ .f32 0x7F800000#32
  let main_v10 : FVec F S1000000x7 .f32 := broadcastInDim S1000000x7 ![] bcast_S_S1000000x7 main_cst_2
  let main_v11 : IVec S1000000x7 1 := cmpf .olt main_v9 main_v10
  let main_c_3 : IVec S_ 1 := constantI S_ 1 1#1
  let main_v12 : IVec S_ 1 := (fun x v => Host.reduce IntOp.andi x v reducesTo_S1000000x7_S_d0_1 h_S_) main_v11 main_c_3
  let main_v13 : IVec S_ 1 := andi main_v8 main_v12
  main_v13
-- ==== Kernel.lean ====
abbrev S1000000 : Shape := ⟨1, ![1000000]⟩
abbrev S32000000 : Shape := ⟨1, ![32000000]⟩
abbrev S1000000x7 : Shape := ⟨2, ![1000000, 7]⟩
abbrev S_ : Shape := ⟨0, ![]⟩
abbrev S32000000x1 : Shape := ⟨2, ![32000000, 1]⟩
abbrev S1048576 : Shape := ⟨1, ![1048576]⟩
abbrev S8192x128 : Shape := ⟨2, ![8192, 128]⟩
abbrev S1000000x1 : Shape := ⟨2, ![1000000, 1]⟩
abbrev S1024x128 : Shape := ⟨2, ![1024, 128]⟩

abbrev nBuf : Space → Nat
  | .hbm => 62
  | .vmem => 16
  | .smem => 0
  | _ => 0

abbrev bufTy : (tb : Table) → Fin (tcTables nBuf tb) → BufTy
  | .hbm, ⟨0, _⟩ => ⟨S1000000, .f32⟩
  | .hbm, ⟨1, _⟩ => ⟨S32000000, .f32⟩
  | .hbm, ⟨2, _⟩ => ⟨S1000000x7, .f32⟩
  | .hbm, ⟨3, _⟩ => ⟨S32000000, .i32⟩
  | .hbm, ⟨4, _⟩ => ⟨S32000000, .i32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S32000000x1, .i32⟩
  | .hbm, ⟨13, _⟩ => ⟨S32000000, .f32⟩
  | .hbm, ⟨14, _⟩ => ⟨S32000000, .f32⟩
  | .hbm, ⟨15, _⟩ => ⟨S_, .f32⟩
  | .hbm, ⟨16, _⟩ => ⟨S1000000, .f32⟩
  | .hbm, ⟨17, _⟩ => ⟨S32000000x1, .i32⟩
  | .hbm, ⟨18, _⟩ => ⟨S1000000, .f32⟩
  | .hbm, ⟨19, _⟩ => ⟨S_, .i32⟩
  | .hbm, ⟨20, _⟩ => ⟨S_, .f32⟩
  | .hbm, ⟨21, _⟩ => ⟨S1048576, .f32⟩
  | .hbm, ⟨22, _⟩ => ⟨S8192x128, .f32⟩
  | .hbm, ⟨23, _⟩ => ⟨S1000000x1, .f32⟩
  | .hbm, ⟨24, _⟩ => ⟨S1000000, .f32⟩
  | .hbm, ⟨25, _⟩ => ⟨S_, .i32⟩
  | .hbm, ⟨26, _⟩ => ⟨S_, .f32⟩
  | .hbm, ⟨27, _⟩ => ⟨S1048576, .f32⟩
  | .hbm, ⟨28, _⟩ => ⟨S8192x128, .f32⟩
  | .hbm, ⟨29, _⟩ => ⟨S1000000x1, .f32⟩
  | .hbm, ⟨30, _⟩ => ⟨S1000000, .f32⟩
  | .hbm, ⟨31, _⟩ => ⟨S_, .i32⟩
  | .hbm, ⟨32, _⟩ => ⟨S_, .f32⟩
  | .hbm, ⟨33, _⟩ => ⟨S1048576, .f32⟩
  | .hbm, ⟨34, _⟩ => ⟨S8192x128, .f32⟩
  | .hbm, ⟨35, _⟩ => ⟨S1000000x1, .f32⟩
  | .hbm, ⟨36, _⟩ => ⟨S1000000, .f32⟩
  | .hbm, ⟨37, _⟩ => ⟨S_, .i32⟩
  | .hbm, ⟨38, _⟩ => ⟨S_, .f32⟩
  | .hbm, ⟨39, _⟩ => ⟨S1048576, .f32⟩
  | .hbm, ⟨40, _⟩ => ⟨S8192x128, .f32⟩
  | .hbm, ⟨41, _⟩ => ⟨S1000000x1, .f32⟩
  | .hbm, ⟨42, _⟩ => ⟨S1000000, .f32⟩
  | .hbm, ⟨43, _⟩ => ⟨S_, .i32⟩
  | .hbm, ⟨44, _⟩ => ⟨S_, .f32⟩
  | .hbm, ⟨45, _⟩ => ⟨S1048576, .f32⟩
  | .hbm, ⟨46, _⟩ => ⟨S8192x128, .f32⟩
  | .hbm, ⟨47, _⟩ => ⟨S1000000x1, .f32⟩
  | .hbm, ⟨48, _⟩ => ⟨S1000000, .f32⟩
  | .hbm, ⟨49, _⟩ => ⟨S_, .i32⟩
  | .hbm, ⟨50, _⟩ => ⟨S_, .f32⟩
  | .hbm, ⟨51, _⟩ => ⟨S1048576, .f32⟩
  | .hbm, ⟨52, _⟩ => ⟨S8192x128, .f32⟩
  | .hbm, ⟨53, _⟩ => ⟨S1000000x1, .f32⟩
  | .hbm, ⟨54, _⟩ => ⟨S1000000, .f32⟩
  | .hbm, ⟨55, _⟩ => ⟨S_, .i32⟩
  | .hbm, ⟨56, _⟩ => ⟨S_, .f32⟩
  | .hbm, ⟨57, _⟩ => ⟨S1048576, .f32⟩
  | .hbm, ⟨58, _⟩ => ⟨S8192x128, .f32⟩
  | .hbm, ⟨59, _⟩ => ⟨S8192x128, .f32⟩
  | .hbm, ⟨60, _⟩ => ⟨S1048576, .f32⟩
  | .hbm, ⟨61, _⟩ => ⟨S1000000, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_call3_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_call4_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_call5_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_call6_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000 : S_.BroadcastsInDim S1000000 (![] : Fin 0 → Fin S1000000.rank)
  pads_S1000000_S1048576_0485760 : S1000000.Pads (![0] : Fin 1 → Nat) ![48576] ![0] S1048576
  h_S_ : 0 < S_.numel
  shapeCasts_S1048576_S8192x128 : S1048576.ShapeCasts S8192x128
  slices_S1000000x7_S1000000x1_0_0 : S1000000x7.Slices ![0, 0] S1000000x1
  shapeCasts_S1000000x1_S1000000 : S1000000x1.ShapeCasts S1000000
  slices_S1000000x7_S1000000x1_0_1 : S1000000x7.Slices ![0, 1] S1000000x1
  slices_S1000000x7_S1000000x1_0_2 : S1000000x7.Slices ![0, 2] S1000000x1
  slices_S1000000x7_S1000000x1_0_3 : S1000000x7.Slices ![0, 3] S1000000x1
  slices_S1000000x7_S1000000x1_0_4 : S1000000x7.Slices ![0, 4] S1000000x1
  slices_S1000000x7_S1000000x1_0_5 : S1000000x7.Slices ![0, 5] S1000000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S1048576 : S8192x128.ShapeCasts S1048576
  slices_S1048576_S1000000_0 : S1048576.Slices ![0] S1000000
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .f32 = 32 ∨ (Rect.block (s := S8192x128) S1024x128.size (cc0_transform_7 i) (hinb0_7 i)).WholeWords (EltTy.packing .f32)

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

abbrev win0_0 : Pipeline.Window sig grid0 :=
  Pipeline.Window.ofSpec (Memref.whole main_v12) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000 : Shape := ⟨1, ![1000000]⟩
abbrev S32000000 : Shape := ⟨1, ![32000000]⟩
abbrev S1000000x7 : Shape := ⟨2, ![1000000, 7]⟩
abbrev S_ : Shape := ⟨0, ![]⟩
abbrev S32000000x1 : Shape := ⟨2, ![32000000, 1]⟩
abbrev S1000000x1 : Shape := ⟨2, ![1000000, 1]⟩
abbrev S1000000x6 : Shape := ⟨2, ![1000000, 6]⟩

abbrev nBuf : Space → Nat
  | .hbm => 42
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S32000000, .f32⟩
  | .hbm, ⟨2, _⟩ => ⟨S1000000x7, .f32⟩
  | .hbm, ⟨3, _⟩ => ⟨S32000000, .i32⟩
  | .hbm, ⟨4, _⟩ => ⟨S32000000, .i32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S32000000x1, .i32⟩
  | .hbm, ⟨13, _⟩ => ⟨S32000000, .f32⟩
  | .hbm, ⟨14, _⟩ => ⟨S32000000, .f32⟩
  | .hbm, ⟨15, _⟩ => ⟨S_, .f32⟩
  | .hbm, ⟨16, _⟩ => ⟨S1000000, .f32⟩
  | .hbm, ⟨17, _⟩ => ⟨S32000000x1, .i32⟩
  | .hbm, ⟨18, _⟩ => ⟨S1000000, .f32⟩
  | .hbm, ⟨19, _⟩ => ⟨S1000000x1, .f32⟩
  | .hbm, ⟨20, _⟩ => ⟨S1000000, .f32⟩
  | .hbm, ⟨21, _⟩ => ⟨S1000000, .f32⟩
  | .hbm, ⟨22, _⟩ => ⟨S1000000x6, .f32⟩
  | .hbm, ⟨23, _⟩ => ⟨S1000000x1, .f32⟩
  | .hbm, ⟨24, _⟩ => ⟨S1000000, .f32⟩
  | .hbm, ⟨25, _⟩ => ⟨S1000000, .f32⟩
  | .hbm, ⟨26, _⟩ => ⟨S1000000, .f32⟩
  | .hbm, ⟨27, _⟩ => ⟨S1000000x1, .f32⟩
  | .hbm, ⟨28, _⟩ => ⟨S1000000, .f32⟩
  | .hbm, ⟨29, _⟩ => ⟨S1000000, .f32⟩
  | .hbm, ⟨30, _⟩ => ⟨S1000000x1, .f32⟩
  | .hbm, ⟨31, _⟩ => ⟨S1000000, .f32⟩
  | .hbm, ⟨32, _⟩ => ⟨S1000000, .f32⟩
  | .hbm, ⟨33, _⟩ => ⟨S1000000, .f32⟩
  | .hbm, ⟨34, _⟩ => ⟨S1000000, .f32⟩
  | .hbm, ⟨35, _⟩ => ⟨S1000000x1, .f32⟩
  | .hbm, ⟨36, _⟩ => ⟨S1000000, .f32⟩
  | .hbm, ⟨37, _⟩ => ⟨S1000000, .f32⟩
  | .hbm, ⟨38, _⟩ => ⟨S1000000, .f32⟩
  | .hbm, ⟨39, _⟩ => ⟨S1000000x1, .f32⟩
  | .hbm, ⟨40, _⟩ => ⟨S1000000, .f32⟩
  | .hbm, ⟨41, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000 : S_.BroadcastsInDim S1000000 (![] : Fin 0 → Fin S1000000.rank)
  slices_S1000000x7_S1000000x1_0_0 : S1000000x7.Slices ![0, 0] S1000000x1
  shapeCasts_S1000000x1_S1000000 : S1000000x1.ShapeCasts S1000000
  slices_S1000000x7_S1000000x6_0_1 : S1000000x7.Slices ![0, 1] S1000000x6
  slices_S1000000x6_S1000000x1_0_0 : S1000000x6.Slices ![0, 0] S1000000x1
  slices_S1000000x6_S1000000x1_0_1 : S1000000x6.Slices ![0, 1] S1000000x1
  slices_S1000000x6_S1000000x1_0_2 : S1000000x6.Slices ![0, 2] S1000000x1
  slices_S1000000x6_S1000000x1_0_3 : S1000000x6.Slices ![0, 3] S1000000x1
  slices_S1000000x6_S1000000x1_0_4 : S1000000x6.Slices ![0, 4] S1000000x1
  gather_S1000000_S32000000x1_S32000000_n_0_n_n_0_1_1_wf : GatherDims.WF S1000000 S32000000x1 S32000000 [] [0] [] [0] [] 1 ![1]
  scatter_S1000000_S32000000x1_S32000000_n_0_0_1_wf : ScatterDims.WF S1000000 S32000000x1 S32000000 [] [0] [0] 1

variable [Facts₀]

def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf
def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf

class Facts : Prop extends Facts₀ where

variable [Facts]
-- ==== Proof.Act.lean ====
/-
  The node update that both programs compute, on the extended reals.

  A node's input is the sum of the messages that arrive at it plus the node's own bias; write x for that sum.
  The node's output is a0 · tanh x · sin (a1 · x + a2) + a3 · x + a4, where the bias and a0 … a4 are columns
  0 … 5 of the node's row of parameters (column 6 is never read). The grouping below is the one in which both
  programs evaluate the expression: ((a0 · tanh x) · sin (a1 · x + a2) + a3 · x) + a4. Nothing here is an
  algebraic law: the two programs apply the same operations to the same numbers, so no finiteness is needed.
-/
import Idealize.ShloMosaic.PureOps.Ideal
import Idealize.ShloMosaic.Lib.ValueIdx

noncomputable section

namespace Cert.NodeAct

open Idealize.ShloMosaic Idealize.ShloMosaic.ValueIdx

/-- One node's output from the sum `s` of its incoming messages, its bias `b` and its five coefficients. -/
def act (s b a0 a1 a2 a3 a4 : EReal) : EReal :=
  a0 * Ideal.tanh (s + b) * Ideal.sin (a1 * (s + b) + a2) + a3 * (s + b) + a4

/-- One entry per node. -/
abbrev Nodes : Shape := ⟨1, ![1000000]⟩
/-- One row of seven parameters per node. -/
abbrev Params : Shape := ⟨2, ![1000000, 7]⟩

/-- Node `n`'s output, from the per-node message sums `agg` and the parameter table `P`. -/
def outAt (agg : Nodes.Idx → EReal) (P : Params.Idx → EReal) (n : Fin 1000000) : EReal :=
  act (agg (ix1 n)) (P (ix2 n (0 : Fin 7))) (P (ix2 n (1 : Fin 7))) (P (ix2 n (2 : Fin 7))) (P (ix2 n (3 : Fin 7)))
    (P (ix2 n (4 : Fin 7))) (P (ix2 n (5 : Fin 7)))

/-- All the outputs, as one array. -/
def out (agg : Nodes.Idx → EReal) (P : Params.Idx → EReal) : Nodes.Idx → EReal :=
  fun i => outAt agg P ⟨(i 0).val, (i 0).isLt⟩

/-- The array read at node `n`. -/
theorem out_ix1 (agg : Nodes.Idx → EReal) (P : Params.Idx → EReal) (n : Fin 1000000) :
    out agg P (ix1 n) = outAt agg P n := rfl

end Cert.NodeAct

end
-- ==== Proof.LibPadRows.lean ====
/-
  A vector laid out in rows, and back.

  A vector of N entries is lengthened at its end to M entries and read as a table of R rows of L entries, row after
  row: entry (r, l) of the table is entry r · L + l of the lengthened vector, and where that position is below N it is
  the original vector's entry. In the other direction a table read row after row as a vector of M entries and cut to
  its first N has, at position n = r · L + l, the table's entry (r, l). A third lemma reads one column of a table
  that has been cut out as a one-column table and flattened to a vector. All extents are symbolic.
-/
import Idealize.ShloMosaic.Lib.Pipeline.Value
import Idealize.ShloMosaic.Lib.KernelVsHost
import Idealize.ShloMosaic.Lib.ValueIdx

noncomputable section

namespace Cert.LibPadRows

open Idealize.ShloMosaic Idealize.ShloMosaic.ValueIdx

variable {α : Type}

/-- A length-`N` vector padded at its end to `M` entries and viewed as an `[R, L]` table, read at `(r, l)`
    whose row-major position `r · L + l` is a position `n` of the vector, is the vector at `n`. -/
theorem rows_pad_apply {N M R L hi : Nat} (x : (⟨1, ![N]⟩ : Shape).Idx → α) {u : Shape} (v : u.Idx → α)
    (hp : (⟨1, ![N]⟩ : Shape).Pads (![0] : Fin 1 → Nat) ![hi] ![0] ⟨1, ![M]⟩) (hu : 0 < u.numel)
    (hc : (⟨1, ![M]⟩ : Shape).ShapeCasts ⟨2, ![R, L]⟩) (r : Fin R) (l : Fin L) (k : Fin M) (n : Fin N)
    (hk : k.val = r.val * L + l.val) (hn : n.val = k.val) :
    shapeCast ⟨2, ![R, L]⟩ (pad ⟨1, ![M]⟩ ![0] ![hi] ![0] x v hp hu) hc (ix2 r l) = x (ix1 n) := by
  refine (shapeCast_apply _ hc (ix2 r l) (ix1 k) ?_).trans ?_
  · rw [Shape.rowMajor_val_one, Shape.rowMajor_val_two]
    exact hk
  · exact pad_apply_of_inside _ _ _ x v hp hu (ix1 k) (ix1 n) (by
      intro a
      have ha : a = 0 := Subsingleton.elim _ _
      subst ha
      show k.val = 0 + n.val * (0 + 1)
      omega)

/-- An `[R, L]` table viewed as a vector of `M` entries and cut to its first `N`, read at a position `n` that is
    the row-major position of `(r, l)`, is the table at `(r, l)`. -/
theorem slice_flat_apply {N M R L : Nat} (y : (⟨2, ![R, L]⟩ : Shape).Idx → α)
    (hc : (⟨2, ![R, L]⟩ : Shape).ShapeCasts ⟨1, ![M]⟩)
    (hs : (⟨1, ![M]⟩ : Shape).Slices (![0] : Fin 1 → Nat) ⟨1, ![N]⟩)
    (n : Fin N) (k : Fin M) (r : Fin R) (l : Fin L) (hk : k.val = n.val) (hn : n.val = r.val * L + l.val) :
    extractStridedSlice ⟨1, ![N]⟩ ![0] (shapeCast ⟨1, ![M]⟩ y hc) hs (ix1 n) = y (ix2 r l) := by
  refine (extractStridedSlice_apply _ _ hs (ix1 n) (ix1 k) (by
    intro a
    have ha : a = 0 := Subsingleton.elim _ _
    subst ha
    show k.val = 0 + n.val
    omega)).trans ?_
  refine shapeCast_apply y hc (ix1 k) (ix2 r l) ?_
  rw [Shape.rowMajor_val_two, Shape.rowMajor_val_one]
  show r.val * L + l.val = k.val
  omega

/-- Column `k` of an `[N, C]` table, cut out as an `[N, 1]` table and viewed as a vector, read at `n`, is the
    table at `(n, k)`. -/
theorem column_apply {N C : Nat} (k : Nat) (P : (⟨2, ![N, C]⟩ : Shape).Idx → α)
    (hs : (⟨2, ![N, C]⟩ : Shape).Slices (![0, k] : Fin 2 → Nat) ⟨2, ![N, 1]⟩)
    (hc : (⟨2, ![N, 1]⟩ : Shape).ShapeCasts ⟨1, ![N]⟩) (n : Fin N) (kk : Fin C) (hkk : kk.val = k) :
    shapeCast ⟨1, ![N]⟩ (extractStridedSlice ⟨2, ![N, 1]⟩ ![0, k] P hs) hc (ix1 n) = P (ix2 n kk) := by
  refine (shapeCast_apply _ hc (ix1 n) (ix2 n (0 : Fin 1)) ?_).trans ?_
  · rw [Shape.rowMajor_val_two, Shape.rowMajor_val_one]
    show n.val * 1 + 0 = n.val
    omega
  · exact extractStridedSlice_apply _ P hs (ix2 n (0 : Fin 1)) (ix2 n kk) (fun a => match a with
      | ⟨0, _⟩ => by show n.val = 0 + n.val; omega
      | ⟨1, _⟩ => by show kk.val = k + 0; omega)

end Cert.LibPadRows

end
-- ==== Proof.Tables.lean ====
/-
  The tables the kernel's region is launched on, as functions of @main's arguments.

  Before the region the program computes, on the host, the per-node message sums — node_output gathered at the edges'
  sources, times the edge weights, summed into the edges' destinations — and cuts columns 0 … 5 out of the parameter
  table. Each of these seven vectors of one million entries is lengthened to 8192 · 128 = 1048576 entries and laid out
  as 8192 rows of 128. Entry (r, l) of such a table, when 128 · r + l is below one million, is entry 128 · r + l of the
  vector; the other entries are padding and never reach the result.
-/
import proofs.«131374_j1760936591969_2_alg».proof.Proof.Gen.KernelIdeal
import proofs.«131374_j1760936591969_2_alg».proof.Proof.LibPadRows
import Idealize.ShloMosaic.Lib.ValueIdx
import Idealize.ShloMosaic.PureOps.Ideal

noncomputable section

namespace Cert.KernelIdeal.Tables

open Idealize.ShloMosaic Idealize.ShloMosaic.ValueIdx
open Cert.KernelIdeal

open Cert.KernelIdeal.Facts₀ Cert.KernelIdeal.Facts

/-- The per-node message sums: `x0` gathered at the (wrapped) source indices `x3`, times the weights `x1`, added
    into a zero vector at the destination indices `x4`. Carried as one term; never opened. -/
def agg (x0 : FVec Ideal S1000000 .f32) (x1 : FVec Ideal S32000000 .f32) (x3 x4 : IVec S32000000 32) :
    FVec Ideal S1000000 .f32 :=
  Host.scatterAdd scatter_S1000000_S32000000x1_S32000000_n_0_0_1
    (broadcastInDim S1000000 ![] bcast_S_S1000000 (constant (F := Ideal) S_ .f32 0x00000000#32))
    (broadcastInDim S32000000x1 ![0] bcast_S32000000_S32000000x1_0 x4)
    (mulf (Host.gather gather_S1000000_S32000000x1_S32000000_n_0_n_n_0_1_1 x0
        (broadcastInDim S32000000x1 ![0] bcast_S32000000_S32000000x1_0
          (select (cmpi .slt x3 (broadcastInDim S32000000 ![] bcast_S_S32000000 (constantI S_ 32 0#32)))
            (addi x3 (broadcastInDim S32000000 ![] bcast_S_S32000000 (constantI S_ 32 1000000#32))) x3)))
      x1)

/-- A vector of one million entries lengthened at its end and laid out as 8192 rows of 128. -/
def rows (x : FVec Ideal S1000000 .f32) : FVec Ideal S8192x128 .f32 :=
  shapeCast S8192x128
    (pad S1048576 ![0] ![48576] ![0] x (sitofp (F := Ideal) .f32 (constantI S_ 32 0#32)) pads_S1000000_S1048576_0485760 h_S_)
    shapeCasts_S1048576_S8192x128

/-- Column 0 of the parameter table (the biases), as a vector. -/
def column0 (P : FVec Ideal S1000000x7 .f32) : FVec Ideal S1000000 .f32 :=
  shapeCast S1000000 (extractStridedSlice S1000000x1 ![0, 0] P slices_S1000000x7_S1000000x1_0_0) shapeCasts_S1000000x1_S1000000
/-- Column 1 (the coefficients a0). -/
def column1 (P : FVec Ideal S1000000x7 .f32) : FVec Ideal S1000000 .f32 :=
  shapeCast S1000000 (extractStridedSlice S1000000x1 ![0, 1] P slices_S1000000x7_S1000000x1_0_1) shapeCasts_S1000000x1_S1000000
/-- Column 2 (a1). -/
def column2 (P : FVec Ideal S1000000x7 .f32) : FVec Ideal S1000000 .f32 :=
  shapeCast S1000000 (extractStridedSlice S1000000x1 ![0, 2] P slices_S1000000x7_S1000000x1_0_2) shapeCasts_S1000000x1_S1000000
/-- Column 3 (a2). -/
def column3 (P : FVec Ideal S1000000x7 .f32) : FVec Ideal S1000000 .f32 :=
  shapeCast S1000000 (extractStridedSlice S1000000x1 ![0, 3] P slices_S1000000x7_S1000000x1_0_3) shapeCasts_S1000000x1_S1000000
/-- Column 4 (a3). -/
def column4 (P : FVec Ideal S1000000x7 .f32) : FVec Ideal S1000000 .f32 :=
  shapeCast S1000000 (extractStridedSlice S1000000x1 ![0, 4] P slices_S1000000x7_S1000000x1_0_4) shapeCasts_S1000000x1_S1000000
/-- Column 5 (a4). -/
def column5 (P : FVec Ideal S1000000x7 .f32) : FVec Ideal S1000000 .f32 :=
  shapeCast S1000000 (extractStridedSlice S1000000x1 ![0, 5] P slices_S1000000x7_S1000000x1_0_5) shapeCasts_S1000000x1_S1000000

/-- Entry (r, l) of the laid-out table is the vector's entry 128 · r + l, when that is a position of the vector. -/
theorem rows_apply (x : FVec Ideal S1000000 .f32) (r : Fin 8192) (l : Fin 128) (n : Fin 1000000)
    (hn : n.val = r.val * 128 + l.val) : rows x (ix2 r l) = x (ix1 n) :=
  Cert.LibPadRows.rows_pad_apply x _ pads_S1000000_S1048576_0485760 h_S_ shapeCasts_S1048576_S8192x128 r l
    (⟨n.val, by have := n.isLt; omega⟩ : Fin 1048576) n hn rfl

theorem column0_apply (P : FVec Ideal S1000000x7 .f32) (n : Fin 1000000) : column0 P (ix1 n) = P (ix2 n (0 : Fin 7)) :=
  Cert.LibPadRows.column_apply 0 P slices_S1000000x7_S1000000x1_0_0 shapeCasts_S1000000x1_S1000000 n 0 rfl
theorem column1_apply (P : FVec Ideal S1000000x7 .f32) (n : Fin 1000000) : column1 P (ix1 n) = P (ix2 n (1 : Fin 7)) :=
  Cert.LibPadRows.column_apply 1 P slices_S1000000x7_S1000000x1_0_1 shapeCasts_S1000000x1_S1000000 n 1 rfl
theorem column2_apply (P : FVec Ideal S1000000x7 .f32) (n : Fin 1000000) : column2 P (ix1 n) = P (ix2 n (2 : Fin 7)) :=
  Cert.LibPadRows.column_apply 2 P slices_S1000000x7_S1000000x1_0_2 shapeCasts_S1000000x1_S1000000 n 2 rfl
theorem column3_apply (P : FVec Ideal S1000000x7 .f32) (n : Fin 1000000) : column3 P (ix1 n) = P (ix2 n (3 : Fin 7)) :=
  Cert.LibPadRows.column_apply 3 P slices_S1000000x7_S1000000x1_0_3 shapeCasts_S1000000x1_S1000000 n 3 rfl
theorem column4_apply (P : FVec Ideal S1000000x7 .f32) (n : Fin 1000000) : column4 P (ix1 n) = P (ix2 n (4 : Fin 7)) :=
  Cert.LibPadRows.column_apply 4 P slices_S1000000x7_S1000000x1_0_4 shapeCasts_S1000000x1_S1000000 n 4 rfl
theorem column5_apply (P : FVec Ideal S1000000x7 .f32) (n : Fin 1000000) : column5 P (ix1 n) = P (ix2 n (5 : Fin 7)) :=
  Cert.LibPadRows.column_apply 5 P slices_S1000000x7_S1000000x1_0_5 shapeCasts_S1000000x1_S1000000 n 5 rfl

end Cert.KernelIdeal.Tables

end
-- ==== Proof.LibTypedRef.lean ====
/-
  Typed references to buffers: moving contents between a value's type and its buffer's type.

  A typed reference carries a buffer together with a proof that the buffer's type is the value's type. Contents are moved
  from the value's type to the buffer's, and back, by a cast along that proof. A cast never changes the value: a value
  moved out and back is itself, and a moved value equals any value it is equal to across the two types.
-/
import Idealize.ShloMosaic.Lib.StableHlo

noncomputable section

namespace Cert.LibTypedRef

open Idealize.ShloMosaic

variable {sig : RefSig} {T : BufTy} {Val : EltTy → Type}

/-- Contents moved to the buffer's type and back are unchanged. -/
theorem ofBuf_toBuf (x : StableHlo.TRef sig T) (v : T.Contents Val) : x.ofBuf (x.toBuf v) = v :=
  eq_of_heq ((cast_heq _ _).trans (cast_heq _ _))

/-- Contents read at the value's type are any value of that type they equal across the two types. -/
theorem ofBuf_of_heq (x : StableHlo.TRef sig T) (v : x.ref.ty.Contents Val) (w : T.Contents Val) (h : HEq v w) :
    x.ofBuf v = w :=
  eq_of_heq ((cast_heq _ v).trans h)

/-- Contents written at the buffer's type are any value of that type they equal across the two types. -/
theorem toBuf_of_heq (x : StableHlo.TRef sig T) (v : T.Contents Val) (w : x.ref.ty.Contents Val) (h : HEq v w) :
    x.toBuf v = w :=
  eq_of_heq ((cast_heq _ v).trans h)

end Cert.LibTypedRef

end
-- ==== Proof.Entry.lean ====
/-
  What the region finds in its seven input tables.

  Each table is written by a short chain of host operations before the region: the vector (the message sums, or one
  column of the parameter table), the lengthening to 1048576 entries by an outlined helper function, and the layout in
  rows. The helper's operations are stated over references that carry their value's type; moving a value between that
  type and its buffer's type changes nothing, and once those moves are removed the chain is literally the laid-out
  vector of Tables.lean.
-/
import proofs.«131374_j1760936591969_2_alg».proof.Proof.Gen.KernelIdeal.Frame
import proofs.«131374_j1760936591969_2_alg».proof.Proof.Tables
import proofs.«131374_j1760936591969_2_alg».proof.Proof.LibTypedRef
import Idealize.ShloMosaic.Lib.StableHlo.Run
import Idealize.ShloMosaic.PureOps.Ideal

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Tables

variable (m : (ℓ : Loc nD τ sig) → Buf (Elt Ideal) ℓ)

set_option maxHeartbeats 2000000 in
/-- Window 0: the message sums, laid out in rows. -/
theorem entry0 (c : Dev nD) : (V m c main_v12 : FVec Ideal S8192x128 .f32) = rows (agg (m ((c : Thread nD τ).loc main_arg0)) (m ((c : Thread nD τ).loc main_arg1)) (m ((c : Thread nD τ).loc main_arg3)) (m ((c : Thread nD τ).loc main_arg4))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  simp only [Cert.LibTypedRef.ofBuf_toBuf]
  rw [Cert.LibTypedRef.ofBuf_of_heq (.of main_c_1 : StableHlo.TRef sig ⟨S_, .i32⟩) _ _ HEq.rfl]
  rw [Cert.LibTypedRef.ofBuf_of_heq (.of main_v10 : StableHlo.TRef sig ⟨S1000000, .f32⟩) _ _ HEq.rfl]
  rw [Cert.LibTypedRef.toBuf_of_heq (.of main_v11 : StableHlo.TRef sig ⟨S1048576, .f32⟩) _ _ HEq.rfl]
  unfold rows agg
  rfl

set_option maxHeartbeats 2000000 in
/-- Window 1: the biases (column 0 of the parameters), laid out in rows. -/
theorem entry1 (c : Dev nD) : (V m c main_v16 : FVec Ideal S8192x128 .f32) = rows (column0 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  simp only [Cert.LibTypedRef.ofBuf_toBuf]
  rw [Cert.LibTypedRef.ofBuf_of_heq (.of main_c_2 : StableHlo.TRef sig ⟨S_, .i32⟩) _ _ HEq.rfl]
  rw [Cert.LibTypedRef.ofBuf_of_heq (.of main_v14 : StableHlo.TRef sig ⟨S1000000, .f32⟩) _ _ HEq.rfl]
  rw [Cert.LibTypedRef.toBuf_of_heq (.of main_v15 : StableHlo.TRef sig ⟨S1048576, .f32⟩) _ _ HEq.rfl]
  unfold rows column0
  rfl

set_option maxHeartbeats 2000000 in
/-- Window 2: the coefficients a0 (column 1), laid out in rows. -/
theorem entry2 (c : Dev nD) : (V m c main_v20 : FVec Ideal S8192x128 .f32) = rows (column1 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  simp only [Cert.LibTypedRef.ofBuf_toBuf]
  rw [Cert.LibTypedRef.ofBuf_of_heq (.of main_c_3 : StableHlo.TRef sig ⟨S_, .i32⟩) _ _ HEq.rfl]
  rw [Cert.LibTypedRef.ofBuf_of_heq (.of main_v18 : StableHlo.TRef sig ⟨S1000000, .f32⟩) _ _ HEq.rfl]
  rw [Cert.LibTypedRef.toBuf_of_heq (.of main_v19 : StableHlo.TRef sig ⟨S1048576, .f32⟩) _ _ HEq.rfl]
  unfold rows column1
  rfl

set_option maxHeartbeats 2000000 in
/-- Window 3: the coefficients a1 (column 2), laid out in rows. -/
theorem entry3 (c : Dev nD) : (V m c main_v24 : FVec Ideal S8192x128 .f32) = rows (column2 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  simp only [Cert.LibTypedRef.ofBuf_toBuf]
  rw [Cert.LibTypedRef.ofBuf_of_heq (.of main_c_4 : StableHlo.TRef sig ⟨S_, .i32⟩) _ _ HEq.rfl]
  rw [Cert.LibTypedRef.ofBuf_of_heq (.of main_v22 : StableHlo.TRef sig ⟨S1000000, .f32⟩) _ _ HEq.rfl]
  rw [Cert.LibTypedRef.toBuf_of_heq (.of main_v23 : StableHlo.TRef sig ⟨S1048576, .f32⟩) _ _ HEq.rfl]
  unfold rows column2
  rfl

set_option maxHeartbeats 2000000 in
/-- Window 4: the coefficients a2 (column 3), laid out in rows. -/
theorem entry4 (c : Dev nD) : (V m c main_v28 : FVec Ideal S8192x128 .f32) = rows (column3 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  simp only [Cert.LibTypedRef.ofBuf_toBuf]
  rw [Cert.LibTypedRef.ofBuf_of_heq (.of main_c_5 : StableHlo.TRef sig ⟨S_, .i32⟩) _ _ HEq.rfl]
  rw [Cert.LibTypedRef.ofBuf_of_heq (.of main_v26 : StableHlo.TRef sig ⟨S1000000, .f32⟩) _ _ HEq.rfl]
  rw [Cert.LibTypedRef.toBuf_of_heq (.of main_v27 : StableHlo.TRef sig ⟨S1048576, .f32⟩) _ _ HEq.rfl]
  unfold rows column3
  rfl

set_option maxHeartbeats 2000000 in
/-- Window 5: the coefficients a3 (column 4), laid out in rows. -/
theorem entry5 (c : Dev nD) : (V m c main_v32 : FVec Ideal S8192x128 .f32) = rows (column4 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  simp only [Cert.LibTypedRef.ofBuf_toBuf]
  rw [Cert.LibTypedRef.ofBuf_of_heq (.of main_c_6 : StableHlo.TRef sig ⟨S_, .i32⟩) _ _ HEq.rfl]
  rw [Cert.LibTypedRef.ofBuf_of_heq (.of main_v30 : StableHlo.TRef sig ⟨S1000000, .f32⟩) _ _ HEq.rfl]
  rw [Cert.LibTypedRef.toBuf_of_heq (.of main_v31 : StableHlo.TRef sig ⟨S1048576, .f32⟩) _ _ HEq.rfl]
  unfold rows column4
  rfl

set_option maxHeartbeats 2000000 in
/-- Window 6: the coefficients a4 (column 5), laid out in rows. -/
theorem entry6 (c : Dev nD) : (V m c main_v36 : FVec Ideal S8192x128 .f32) = rows (column5 (m ((c : Thread nD τ).loc main_arg2))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp
  simp only [Cert.LibTypedRef.ofBuf_toBuf]
  rw [Cert.LibTypedRef.ofBuf_of_heq (.of main_c_7 : StableHlo.TRef sig ⟨S_, .i32⟩) _ _ HEq.rfl]
  rw [Cert.LibTypedRef.ofBuf_of_heq (.of main_v34 : StableHlo.TRef sig ⟨S1000000, .f32⟩) _ _ HEq.rfl]
  rw [Cert.LibTypedRef.toBuf_of_heq (.of main_v35 : StableHlo.TRef sig ⟨S1048576, .f32⟩) _ _ HEq.rfl]
  unfold rows column5
  rfl

end Cert.KernelIdeal.Entry

end
-- ==== Proof.Blocks.lean ====
/-
  From the blocks the kernel writes back to the whole output table.

  The kernel works on tables of 8192 rows of 128 entries, cut into eight blocks of 1024 rows; grid point t reads block t
  of each of its seven input tables and writes block t of the output table. Its body is pointwise: entry (r, l) of the
  block it writes is the node update of the seven input blocks' entries at (r, l). Since every table is cut the same
  way, entry (R, l) of the output table, R = 1024 · t + r, is the node update of the seven input tables' entries at
  (R, l): the blocks are the restrictions of one pointwise function of whole tables. Every row lies in exactly one
  block (row R in block R / 1024), so after the last point the output table is that function everywhere.
-/
import proofs.«131374_j1760936591969_2_alg».proof.Proof.Gen.KernelIdeal.Frame
import proofs.«131374_j1760936591969_2_alg».proof.Proof.Act
import Idealize.ShloMosaic.Lib.Pipeline.Value
import Idealize.ShloMosaic.Lib.ValueIdx
import Idealize.ShloMosaic.PureOps.Ideal

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.NodeAct

variable (m : (ℓ : Loc nD τ sig) → Buf (Elt Ideal) ℓ)

/-- The body loads and stores whole blocks: its one rectangle starts at the block's origin. -/
theorem origin : (![0, 0] : Fin 2 → Nat) = fun _ => 0 := funext fun a => by fin_cases a <;> rfl

/-- The node update applied entry by entry to seven tables: the message sums, the biases and the five coefficients. -/
def update (s b a0 a1 a2 a3 a4 : FVec Ideal S8192x128 .f32) : FVec Ideal S8192x128 .f32 :=
  fun j => act (s j) (b j) (a0 j) (a1 j) (a2 j) (a3 j) (a4 j)

/-- The body's arithmetic on seven loaded blocks is the node update at every entry of the block. The body loads the
    blocks in the order sums, biases, a1, a2, a0, a3, a4; its shape casts are between equal shapes. -/
theorem payload_eq (s b a1 a2 a0 a3 a4 : Vec Ideal S1024x128 .f32) :
    k0_pay1 s b a1 a2 a0 a3 a4 = fun j => act (s j) (b j) (a0 j) (a1 j) (a2 j) (a3 j) (a4 j) := by
  funext j
  unfold k0_pay1
  simp only [shapeCast_self]
  rfl

/-- Every window's block index at a point is the output window's: (t, 0) at point t. -/
theorem same_blocks : ∀ t : Fin cfg0.N,
    win0_0.index t (0 : Fin 2) = win0_7.index t (0 : Fin 2) ∧ win0_0.index t (1 : Fin 2) = win0_7.index t (1 : Fin 2)
    ∧ win0_1.index t (0 : Fin 2) = win0_7.index t (0 : Fin 2) ∧ win0_1.index t (1 : Fin 2) = win0_7.index t (1 : Fin 2)
    ∧ win0_2.index t (0 : Fin 2) = win0_7.index t (0 : Fin 2) ∧ win0_2.index t (1 : Fin 2) = win0_7.index t (1 : Fin 2)
    ∧ win0_3.index t (0 : Fin 2) = win0_7.index t (0 : Fin 2) ∧ win0_3.index t (1 : Fin 2) = win0_7.index t (1 : Fin 2)
    ∧ win0_4.index t (0 : Fin 2) = win0_7.index t (0 : Fin 2) ∧ win0_4.index t (1 : Fin 2) = win0_7.index t (1 : Fin 2)
    ∧ win0_5.index t (0 : Fin 2) = win0_7.index t (0 : Fin 2) ∧ win0_5.index t (1 : Fin 2) = win0_7.index t (1 : Fin 2)
    ∧ win0_6.index t (0 : Fin 2) = win0_7.index t (0 : Fin 2) ∧ win0_6.index t (1 : Fin 2) = win0_7.index t (1 : Fin 2)
    ∧ win0_7.index t (0 : Fin 2) ≤ 7 ∧ win0_7.index t (1 : Fin 2) = 0 :=
  (by decide +kernel : ∀ t : Fin grid0.N, _)

/-- Each of the eight row blocks is some point's. -/
theorem every_block : ∀ q : Fin 8, ∃ t : Fin cfg0.N, win0_7.index t = ![q.val, 0] :=
  (by decide +kernel : ∀ q : Fin 8, ∃ t : Fin grid0.N, win0_7.index t = ![q.val, 0])

/-- Input window 0's block at point `t` is the output window's block of input table 0: same rows, same lanes. -/
theorem read0 (c : Dev nD) (t : Fin cfg0.N) :
    iblk m c 0 t = ((cfg0.win 7).blk t).view.read (Elt Ideal) (V m c main_v12) := by
  obtain ⟨e00, e01, -⟩ := same_blocks t
  funext j
  show V m c main_v12 (((cfg0.win 0).blk t).view.emb j) = V m c main_v12 (((cfg0.win 7).blk t).view.emb j)
  refine congrArg (V m c main_v12) ?_
  funext a; apply Fin.ext
  match a with
  | ⟨0, _⟩ => show win0_0.index t (0 : Fin 2) * 1024 + 1 * (j 0).val = win0_7.index t (0 : Fin 2) * 1024 + 1 * (j 0).val; omega
  | ⟨1, _⟩ => show win0_0.index t (1 : Fin 2) * 128 + 1 * (j 1).val = win0_7.index t (1 : Fin 2) * 128 + 1 * (j 1).val; omega

/-- Input window 1's block at point `t` is the output window's block of input table 1: same rows, same lanes. -/
theorem read1 (c : Dev nD) (t : Fin cfg0.N) :
    iblk m c 1 t = ((cfg0.win 7).blk t).view.read (Elt Ideal) (V m c main_v16) := by
  obtain ⟨-, -, e10, e11, -⟩ := same_blocks t
  funext j
  show V m c main_v16 (((cfg0.win 1).blk t).view.emb j) = V m c main_v16 (((cfg0.win 7).blk t).view.emb j)
  refine congrArg (V m c main_v16) ?_
  funext a; apply Fin.ext
  match a with
  | ⟨0, _⟩ => show win0_1.index t (0 : Fin 2) * 1024 + 1 * (j 0).val = win0_7.index t (0 : Fin 2) * 1024 + 1 * (j 0).val; omega
  | ⟨1, _⟩ => show win0_1.index t (1 : Fin 2) * 128 + 1 * (j 1).val = win0_7.index t (1 : Fin 2) * 128 + 1 * (j 1).val; omega

/-- Input window 2's block at point `t` is the output window's block of input table 2: same rows, same lanes. -/
theorem read2 (c : Dev nD) (t : Fin cfg0.N) :
    iblk m c 2 t = ((cfg0.win 7).blk t).view.read (Elt Ideal) (V m c main_v20) := by
  obtain ⟨-, -, -, -, e20, e21, -⟩ := same_blocks t
  funext j
  show V m c main_v20 (((cfg0.win 2).blk t).view.emb j) = V m c main_v20 (((cfg0.win 7).blk t).view.emb j)
  refine congrArg (V m c main_v20) ?_
  funext a; apply Fin.ext
  match a with
  | ⟨0, _⟩ => show win0_2.index t (0 : Fin 2) * 1024 + 1 * (j 0).val = win0_7.index t (0 : Fin 2) * 1024 + 1 * (j 0).val; omega
  | ⟨1, _⟩ => show win0_2.index t (1 : Fin 2) * 128 + 1 * (j 1).val = win0_7.index t (1 : Fin 2) * 128 + 1 * (j 1).val; omega

/-- Input window 3's block at point `t` is the output window's block of input table 3: same rows, same lanes. -/
theorem read3 (c : Dev nD) (t : Fin cfg0.N) :
    iblk m c 3 t = ((cfg0.win 7).blk t).view.read (Elt Ideal) (V m c main_v24) := by
  obtain ⟨-, -, -, -, -, -, e30, e31, -⟩ := same_blocks t
  funext j
  show V m c main_v24 (((cfg0.win 3).blk t).view.emb j) = V m c main_v24 (((cfg0.win 7).blk t).view.emb j)
  refine congrArg (V m c main_v24) ?_
  funext a; apply Fin.ext
  match a with
  | ⟨0, _⟩ => show win0_3.index t (0 : Fin 2) * 1024 + 1 * (j 0).val = win0_7.index t (0 : Fin 2) * 1024 + 1 * (j 0).val; omega
  | ⟨1, _⟩ => show win0_3.index t (1 : Fin 2) * 128 + 1 * (j 1).val = win0_7.index t (1 : Fin 2) * 128 + 1 * (j 1).val; omega

/-- Input window 4's block at point `t` is the output window's block of input table 4: same rows, same lanes. -/
theorem read4 (c : Dev nD) (t : Fin cfg0.N) :
    iblk m c 4 t = ((cfg0.win 7).blk t).view.read (Elt Ideal) (V m c main_v28) := by
  obtain ⟨-, -, -, -, -, -, -, -, e40, e41, -⟩ := same_blocks t
  funext j
  show V m c main_v28 (((cfg0.win 4).blk t).view.emb j) = V m c main_v28 (((cfg0.win 7).blk t).view.emb j)
  refine congrArg (V m c main_v28) ?_
  funext a; apply Fin.ext
  match a with
  | ⟨0, _⟩ => show win0_4.index t (0 : Fin 2) * 1024 + 1 * (j 0).val = win0_7.index t (0 : Fin 2) * 1024 + 1 * (j 0).val; omega
  | ⟨1, _⟩ => show win0_4.index t (1 : Fin 2) * 128 + 1 * (j 1).val = win0_7.index t (1 : Fin 2) * 128 + 1 * (j 1).val; omega

/-- Input window 5's block at point `t` is the output window's block of input table 5: same rows, same lanes. -/
theorem read5 (c : Dev nD) (t : Fin cfg0.N) :
    iblk m c 5 t = ((cfg0.win 7).blk t).view.read (Elt Ideal) (V m c main_v32) := by
  obtain ⟨-, -, -, -, -, -, -, -, -, -, e50, e51, -⟩ := same_blocks t
  funext j
  show V m c main_v32 (((cfg0.win 5).blk t).view.emb j) = V m c main_v32 (((cfg0.win 7).blk t).view.emb j)
  refine congrArg (V m c main_v32) ?_
  funext a; apply Fin.ext
  match a with
  | ⟨0, _⟩ => show win0_5.index t (0 : Fin 2) * 1024 + 1 * (j 0).val = win0_7.index t (0 : Fin 2) * 1024 + 1 * (j 0).val; omega
  | ⟨1, _⟩ => show win0_5.index t (1 : Fin 2) * 128 + 1 * (j 1).val = win0_7.index t (1 : Fin 2) * 128 + 1 * (j 1).val; omega

/-- Input window 6's block at point `t` is the output window's block of input table 6: same rows, same lanes. -/
theorem read6 (c : Dev nD) (t : Fin cfg0.N) :
    iblk m c 6 t = ((cfg0.win 7).blk t).view.read (Elt Ideal) (V m c main_v36) := by
  obtain ⟨-, -, -, -, -, -, -, -, -, -, -, -, e60, e61, -⟩ := same_blocks t
  funext j
  show V m c main_v36 (((cfg0.win 6).blk t).view.emb j) = V m c main_v36 (((cfg0.win 7).blk t).view.emb j)
  refine congrArg (V m c main_v36) ?_
  funext a; apply Fin.ext
  match a with
  | ⟨0, _⟩ => show win0_6.index t (0 : Fin 2) * 1024 + 1 * (j 0).val = win0_7.index t (0 : Fin 2) * 1024 + 1 * (j 0).val; omega
  | ⟨1, _⟩ => show win0_6.index t (1 : Fin 2) * 128 + 1 * (j 1).val = win0_7.index t (1 : Fin 2) * 128 + 1 * (j 1).val; omega

/-- The node update commutes with reading a block: for ANY seven tables, applying the update entry by entry to
    their blocks at point `t` gives the block at `t` of the updated table. -/
theorem update_block (t : Fin cfg0.N) (A0 A1 A2 A3 A4 A5 A6 : FVec Ideal S8192x128 .f32) :
    (cfg0.win 7).cut (grid0.coords t)
        (fun j => act (((cfg0.win 7).blk t).view.read (Elt Ideal) A0 j) (((cfg0.win 7).blk t).view.read (Elt Ideal) A1 j)
          (((cfg0.win 7).blk t).view.read (Elt Ideal) A2 j) (((cfg0.win 7).blk t).view.read (Elt Ideal) A3 j)
          (((cfg0.win 7).blk t).view.read (Elt Ideal) A4 j) (((cfg0.win 7).blk t).view.read (Elt Ideal) A5 j)
          (((cfg0.win 7).blk t).view.read (Elt Ideal) A6 j))
      = ((cfg0.win 7).blk t).view.read (Elt Ideal) (update A0 A1 A2 A3 A4 A5 A6) := by
  funext j
  rfl

/-- What point `t` writes back is block `t` of the node update of the seven input tables as the region finds them:
    the body is pointwise, and by the seven lemmas above all its operands are read through the output's own block. -/
theorem flushed_eq (c : Dev nD) (t : Fin cfg0.N) :
    (dats m 0 c).flushed 7 t = ((cfg0.win 7).blk t).view.read (Elt Ideal)
      (update (V m c main_v12) (V m c main_v16) (V m c main_v20) (V m c main_v24) (V m c main_v28) (V m c main_v32)
        (V m c main_v36)) := by
  show (cfg0.win 7).cut (grid0.coords t) ((dats m 0 c).after 7 t) = _
  rw [after0_7]
  unfold out0_7
  rw [View.canon_unit_zero origin]
  simp only [View.ld_unit_zero (S := S1024x128) origin]
  rw [payload_eq, read0 m c t, read1 m c t, read2 m c t, read3 m c t, read4 m c t, read5 m c t, read6 m c t]
  exact update_block t _ _ _ _ _ _ _

/-- An entry of the output table is in point `t`'s block iff each of its coordinates is in the block's range. -/
theorem mem_blk (t : Fin cfg0.N) (i : S8192x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v37).slice (win0_7.rect t)).set ↔ _
  rw [View.set_slice_whole, Rect.mem_set_unit]
  exact Iff.rfl

/-- Row R of the output table is in the block of the point whose block index is R / 1024. -/
theorem covered (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  obtain ⟨t, ht⟩ := every_block ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

/-- The output table after the last point: the node update of the seven input tables as the region finds them. -/
theorem table_eq (c : Dev nD) :
    (dats m 0 c).arrAt 7 cfg0.N
      = update (V m c main_v12) (V m c main_v16) (V m c main_v20) (V m c main_v24) (V m c main_v28) (V m c main_v32)
          (V m c main_v36) :=
  (dats m 0 c).arrAt_eq_of_cover 7 _ (fun t _ => flushed_eq m c t) covered

end Cert.KernelIdeal.Blocks

end
-- ==== Proof.KernelValue.lean ====
/-
  The idealized kernel program's result.

  After the region the program reads its output table row after row as one vector and keeps the first million
  entries. Entry n of that vector is the table's entry (n / 128, n % 128); the table is the node update of the seven
  laid-out input tables; and each of those, at (n / 128, n % 128), is entry n of its vector — the message sum at n or
  a parameter of row n, since 128 · (n / 128) + n % 128 = n is below one million. So the result at n is the node update
  of the message sum at n and row n of the parameters. The padding entries are never read.
-/
import proofs.«131374_j1760936591969_2_alg».proof.Proof.Gen.KernelIdeal.Frame
import proofs.«131374_j1760936591969_2_alg».proof.Proof.Act
import proofs.«131374_j1760936591969_2_alg».proof.Proof.Tables
import proofs.«131374_j1760936591969_2_alg».proof.Proof.Entry
import proofs.«131374_j1760936591969_2_alg».proof.Proof.Blocks
import proofs.«131374_j1760936591969_2_alg».proof.Proof.LibPadRows
import Idealize.ShloMosaic.Lib.StableHlo.Run
import Idealize.ShloMosaic.Lib.Pipeline.FrameSuffix
import Idealize.ShloMosaic.Lib.ValueIdx
import Idealize.ShloMosaic.PureOps.Ideal

noncomputable section

namespace Cert.KernelIdeal.KernelValue

open Idealize.ShloMosaic Idealize.ShloMosaic.TcCoe Idealize.SL.Sem Idealize.ShloMosaic.StableHlo
open Idealize.ShloMosaic.ValueIdx
open Cert.KernelIdeal Cert.KernelIdeal.Gen Cert.KernelIdeal.Tables Cert.KernelIdeal.Blocks Cert.KernelIdeal.Entry
open Cert.KernelIdeal.Facts₀ Cert.KernelIdeal.Facts Cert.NodeAct

/-- The output table of laid-out vectors, flattened and cut to a million entries, read at node `n`: the node update
    of the message sum at `n` and row `n` of the parameters. -/
theorem tail_at (s : FVec Ideal S1000000 .f32) (P : FVec Ideal S1000000x7 .f32) (n : Fin 1000000) :
    extractStridedSlice S1000000 ![0]
        (shapeCast S1048576
          (update (rows s) (rows (column0 P)) (rows (column1 P)) (rows (column2 P)) (rows (column3 P)) (rows (column4 P))
            (rows (column5 P)))
          Gen.shapeCasts_S8192x128_S1048576)
        Gen.slices_S1048576_S1000000_0 (ix1 n)
      = outAt s P n := by
  have hn : n.val < 1000000 := n.isLt
  have hsplit : n.val = n.val / 128 * 128 + n.val % 128 := by omega
  have hr := fun x : FVec Ideal S1000000 .f32 =>
    rows_apply x (⟨n.val / 128, by omega⟩ : Fin 8192) (⟨n.val % 128, by omega⟩ : Fin 128) n hsplit
  refine (Cert.LibPadRows.slice_flat_apply _ Gen.shapeCasts_S8192x128_S1048576 Gen.slices_S1048576_S1000000_0 n
    (⟨n.val, by omega⟩ : Fin 1048576) (⟨n.val / 128, by omega⟩ : Fin 8192) (⟨n.val % 128, by omega⟩ : Fin 128) rfl
    hsplit).trans ?_
  unfold update outAt
  rw [hr s, hr (column0 P), hr (column1 P), hr (column2 P), hr (column3 P), hr (column4 P), hr (column5 P),
    column0_apply, column1_apply, column2_apply, column3_apply, column4_apply, column5_apply]

variable (m : (ℓ : Loc nD τ sig) → Buf (Elt Ideal) ℓ) (ρ : Dev nD → PrngReg)

/-- The program's result as the host operations after the region leave it. -/
theorem tail_eq (c : Dev nD) :
    Pipeline.afterTail₀ cfgs (dats m) 0 (V0 m) [hostOps1] c main_v39
      = out (agg (m ((c : Thread nD τ).loc main_arg0)) (m ((c : Thread nD τ).loc main_arg1)) (m ((c : Thread nD τ).loc main_arg3)) (m ((c : Thread nD τ).loc main_arg4))) (m ((c : Thread nD τ).loc main_arg2)) := by
  unfold Pipeline.afterTail₀
  show StableHlo.after hostOps1 _ (Proc.devRef .tc main_v39) = _
  after_results_simp
  have hw : Pipeline.withArrays (cfgs 0).spec c (V0 m c) (fun w => (dats m 0 c).arrAt w (cfgs 0).N) (Proc.devRef .tc main_v37)
      = update (rows (agg (m ((c : Thread nD τ).loc main_arg0)) (m ((c : Thread nD τ).loc main_arg1)) (m ((c : Thread nD τ).loc main_arg3)) (m ((c : Thread nD τ).loc main_arg4)))) (rows (column0 (m ((c : Thread nD τ).loc main_arg2)))) (rows (column1 (m ((c : Thread nD τ).loc main_arg2)))) (rows (column2 (m ((c : Thread nD τ).loc main_arg2))))
          (rows (column3 (m ((c : Thread nD τ).loc main_arg2)))) (rows (column4 (m ((c : Thread nD τ).loc main_arg2)))) (rows (column5 (m ((c : Thread nD τ).loc main_arg2)))) :=
    (Pipeline.withArrays_arr spec0 launch0.win.arr_inj c _ _ 7).trans
      ((table_eq m c).trans (by
        rw [entry0 m c, entry1 m c, entry2 m c, entry3 m c, entry4 m c, entry5 m c, entry6 m c]))
  rw [hw]
  funext i
  obtain ⟨n, rfl⟩ : ∃ n : Fin 1000000, i = ix1 n := ⟨i 0, eq_ix1 i⟩
  rw [out_ix1]
  exact tail_at (agg (m ((c : Thread nD τ).loc main_arg0)) (m ((c : Thread nD τ).loc main_arg1)) (m ((c : Thread nD τ).loc main_arg3)) (m ((c : Thread nD τ).loc main_arg4))) (m ((c : Thread nD τ).loc main_arg2)) n

/-- The idealized kernel program's run: every weakly fair execution ends with the result holding the node update of
    the message sums and the parameters, and the five arguments unchanged. -/
theorem run : θ_run defs (onTc (τ := τ) (main (F := Ideal))) ⟨m, fun _ => 0, ρ⟩ (fun r => ∀ c : Dev nD,
      r.2.mem ((c.tc : Thread nD τ).loc main_v39)
        = out (agg (m ((c : Thread nD τ).loc main_arg0)) (m ((c : Thread nD τ).loc main_arg1)) (m ((c : Thread nD τ).loc main_arg3)) (m ((c : Thread nD τ).loc main_arg4))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v39 (Pipeline.mem_restRefs_of main_v39 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference, read at a node.

  The reference computes the same per-node message sums, adds column 0 of the parameter table, and applies the node
  update with columns 1 … 5 as coefficients; it first cuts columns 1 … 6 out as a six-column table and then takes that
  table's columns 0 … 4. Read at node n, every one of its slices and reshapes lands on the parameter table's row n: the
  bias at column 0, the coefficient a_k at column 1 + k. What is left is the node update of those entries and of the
  message sum at n, written with the host's operations, which on the extended reals are the same functions as the
  vector unit's.
-/
import proofs.«131374_j1760936591969_2_alg».proof.Proof.Gen.ReferenceIdeal.Read
import proofs.«131374_j1760936591969_2_alg».proof.Proof.Act
import Idealize.ShloMosaic.Lib.ValueIdx
import Idealize.ShloMosaic.PureOps.Ideal

noncomputable section

namespace Cert.ReferenceIdeal.RefValue

open Idealize.ShloMosaic Idealize.ShloMosaic.ValueIdx
open Cert.ReferenceIdeal Cert.ReferenceIdeal.Read Cert.NodeAct

/-- The bias of node `n` is read at row `n`, column 0. -/
theorem at_bias (n : Fin 1000000) : idx_main_v11 (idx_main_v12 (ix1 n)) = ix2 n (0 : Fin 7) :=
  funext fun a => match a with
    | ⟨0, _⟩ => Fin.ext (Nat.div_one _)
    | ⟨1, _⟩ => Fin.ext rfl
/-- The coefficient a0 of node `n` is read at row `n`, column 1. -/
theorem at_a0 (n : Fin 1000000) : idx_main_v14 (idx_main_v15 (idx_main_v16 (ix1 n))) = ix2 n (1 : Fin 7) :=
  funext fun a => match a with
    | ⟨0, _⟩ => Fin.ext (Nat.div_one _)
    | ⟨1, _⟩ => Fin.ext rfl
/-- a1: row `n`, column 2. -/
theorem at_a1 (n : Fin 1000000) : idx_main_v14 (idx_main_v19 (idx_main_v20 (ix1 n))) = ix2 n (2 : Fin 7) :=
  funext fun a => match a with
    | ⟨0, _⟩ => Fin.ext (Nat.div_one _)
    | ⟨1, _⟩ => Fin.ext rfl
/-- a2: row `n`, column 3. -/
theorem at_a2 (n : Fin 1000000) : idx_main_v14 (idx_main_v22 (idx_main_v23 (ix1 n))) = ix2 n (3 : Fin 7) :=
  funext fun a => match a with
    | ⟨0, _⟩ => Fin.ext (Nat.div_one _)
    | ⟨1, _⟩ => Fin.ext rfl
/-- a3: row `n`, column 4. -/
theorem at_a3 (n : Fin 1000000) : idx_main_v14 (idx_main_v27 (idx_main_v28 (ix1 n))) = ix2 n (4 : Fin 7) :=
  funext fun a => match a with
    | ⟨0, _⟩ => Fin.ext (Nat.div_one _)
    | ⟨1, _⟩ => Fin.ext rfl
/-- a4: row `n`, column 5. -/
theorem at_a4 (n : Fin 1000000) : idx_main_v14 (idx_main_v31 (idx_main_v32 (ix1 n))) = ix2 n (5 : Fin 7) :=
  funext fun a => match a with
    | ⟨0, _⟩ => Fin.ext (Nat.div_one _)
    | ⟨1, _⟩ => Fin.ext rfl

/-- The bias the reference adds at node `n`. -/
theorem bias_at (x2 : (⟨S1000000x7, .f32⟩ : BufTy).Contents (Elt Ideal)) (n : Fin 1000000) :
    val_main_v12 (F := Ideal) x2 (ix1 n) = x2 (ix2 n (0 : Fin 7)) := by
  rw [val_main_v12_apply, val_main_v11_apply, at_bias]
/-- Its coefficient a0 at node `n`. -/
theorem a0_at (x2 : (⟨S1000000x7, .f32⟩ : BufTy).Contents (Elt Ideal)) (n : Fin 1000000) :
    val_main_v16 (F := Ideal) x2 (ix1 n) = x2 (ix2 n (1 : Fin 7)) := by
  rw [val_main_v16_apply, val_main_v15_apply, val_main_v14_apply, at_a0]
/-- a1. -/
theorem a1_at (x2 : (⟨S1000000x7, .f32⟩ : BufTy).Contents (Elt Ideal)) (n : Fin 1000000) :
    val_main_v20 (F := Ideal) x2 (ix1 n) = x2 (ix2 n (2 : Fin 7)) := by
  rw [val_main_v20_apply, val_main_v19_apply, val_main_v14_apply, at_a1]
/-- a2. -/
theorem a2_at (x2 : (⟨S1000000x7, .f32⟩ : BufTy).Contents (Elt Ideal)) (n : Fin 1000000) :
    val_main_v23 (F := Ideal) x2 (ix1 n) = x2 (ix2 n (3 : Fin 7)) := by
  rw [val_main_v23_apply, val_main_v22_apply, val_main_v14_apply, at_a2]
/-- a3. -/
theorem a3_at (x2 : (⟨S1000000x7, .f32⟩ : BufTy).Contents (Elt Ideal)) (n : Fin 1000000) :
    val_main_v28 (F := Ideal) x2 (ix1 n) = x2 (ix2 n (4 : Fin 7)) := by
  rw [val_main_v28_apply, val_main_v27_apply, val_main_v14_apply, at_a3]
/-- a4. -/
theorem a4_at (x2 : (⟨S1000000x7, .f32⟩ : BufTy).Contents (Elt Ideal)) (n : Fin 1000000) :
    val_main_v32 (F := Ideal) x2 (ix1 n) = x2 (ix2 n (5 : Fin 7)) := by
  rw [val_main_v32_apply, val_main_v31_apply, val_main_v14_apply, at_a4]

/-- The reference's result at node `n`: the node update of its message sum at `n` and row `n` of the parameters. -/
theorem result_at (x0 : (⟨S1000000, .f32⟩ : BufTy).Contents (Elt Ideal)) (x1 : (⟨S32000000, .f32⟩ : BufTy).Contents (Elt Ideal))
    (x2 : (⟨S1000000x7, .f32⟩ : BufTy).Contents (Elt Ideal)) (x3 x4 : (⟨S32000000, .i32⟩ : BufTy).Contents (Elt Ideal)) (n : Fin 1000000) :
    val_main_v33 (F := Ideal) x0 x1 x2 x3 x4 (ix1 n) = outAt (val_main_v10 (F := Ideal) x0 x1 x3 x4) x2 n := by
  rw [val_main_v33_apply, val_main_v30_apply, val_main_v26_apply, val_main_v29_apply, val_main_v18_apply,
    val_main_v25_apply, val_main_v17_apply, val_main_v24_apply, val_main_v21_apply, val_main_v13_apply,
    bias_at, a0_at, a1_at, a2_at, a3_at, a4_at]
  unfold outAt act
  simp only [Ideal.addf_def, Ideal.mulf_def, Ideal.hostUnary_tanh_def, Ideal.hostUnary_sin_def]

/-- The reference's result is the node update of its own message sums and the parameter table, node by node. -/
theorem result_eq (x0 : (⟨S1000000, .f32⟩ : BufTy).Contents (Elt Ideal)) (x1 : (⟨S32000000, .f32⟩ : BufTy).Contents (Elt Ideal))
    (x2 : (⟨S1000000x7, .f32⟩ : BufTy).Contents (Elt Ideal)) (x3 x4 : (⟨S32000000, .i32⟩ : BufTy).Contents (Elt Ideal)) :
    val_main_v33 (F := Ideal) x0 x1 x2 x3 x4 = out (val_main_v10 (F := Ideal) x0 x1 x3 x4) x2 := by
  funext i
  obtain ⟨n, rfl⟩ : ∃ n : Fin 1000000, i = ix1 n := ⟨i 0, eq_ix1 i⟩
  rw [out_ix1]
  exact result_at x0 x1 x2 x3 x4 n

end Cert.ReferenceIdeal.RefValue

end
-- ==== Proof.SameSums.lean ====
/-
  The two programs form their message sums by the same operations.

  Both programs compute the per-node message sums on the host, before anything else: the sources' outputs gathered
  along the edges (a negative source index wrapped once by the number of nodes), times the edge weights, added into a
  zero vector at the edges' destinations. The two printed texts name the same operations with the same dimension
  numbers over the same shapes, so the two sums are one term; neither the gather nor the scatter-add is ever opened.
-/
import proofs.«131374_j1760936591969_2_alg».proof.Proof.Gen.ReferenceIdeal.Read
import proofs.«131374_j1760936591969_2_alg».proof.Proof.Tables
import Idealize.ShloMosaic.PureOps.Ideal

noncomputable section

namespace Cert.SameSums

open Idealize.ShloMosaic

/-- The reference's message sums are the kernel program's, as functions of the same four arguments. -/
theorem sums_eq (x0 : (⟨Cert.ReferenceIdeal.S1000000, .f32⟩ : BufTy).Contents (Elt Ideal))
    (x1 : (⟨Cert.ReferenceIdeal.S32000000, .f32⟩ : BufTy).Contents (Elt Ideal))
    (x3 x4 : (⟨Cert.ReferenceIdeal.S32000000, .i32⟩ : BufTy).Contents (Elt Ideal)) :
    Cert.ReferenceIdeal.Read.val_main_v10 (F := Ideal) x0 x1 x3 x4 = Cert.KernelIdeal.Tables.agg x0 x1 x3 x4 := by
  unfold Cert.ReferenceIdeal.Read.val_main_v10 Cert.ReferenceIdeal.Read.val_main_v9 Cert.ReferenceIdeal.Read.val_main_v8 Cert.ReferenceIdeal.Read.val_main_cst
    Cert.ReferenceIdeal.Read.val_main_v7 Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_c_0 Cert.ReferenceIdeal.Read.val_main_v1
    Cert.ReferenceIdeal.Read.val_main_v0 Cert.ReferenceIdeal.Read.val_main_c Cert.KernelIdeal.Tables.agg
  rfl

end Cert.SameSums

end
-- ==== Proof.lean ====
/-
  One layer of message passing on a graph with a million nodes and thirty-two million edges, against its plain
  description.

  Every edge carries the output of its source node times the edge's weight to its destination node; a node sums what
  arrives, adds its bias b, and with x that sum puts out a0 · tanh x · sin (a1 · x + a2) + a3 · x + a4, where b and
  a0 … a4 are columns 0 … 5 of the node's row of parameters.

  The kernel program forms the message sums on the host, lays the sums and the six parameter columns out as tables of
  8192 rows of 128 (lengthened past the millionth entry), applies the node update to the tables eight blocks of 1024
  rows at a time on the vector unit, reads the output table back as one vector and keeps the first million entries.
  The reference forms the same message sums and applies the same update to the million entries directly.

  What is shown: the result at node n is, in both programs, the node update of the message sum at n and row n of the
  parameters — in the kernel program because entry n of the final vector is entry (n / 128, n % 128) of the output
  table, which is the update of the seven input tables' entries at (n / 128, n % 128), which are entry n of the seven
  vectors (Blocks, Entry, Tables, KernelValue); in the reference by reading its slices and reshapes at n (RefValue).
  The message sums are the same term in both (SameSums). Both programs apply the same operations in the same order to
  the same numbers: no law of arithmetic is used and the inputs' finiteness is never needed. The lengthened tables'
  padding is never read back. The idealization rewrote nothing, so there is nothing to preserve.
-/
import proofs.«131374_j1760936591969_2_alg».proof.Defs
import proofs.«131374_j1760936591969_2_alg».proof.Proof.Gen.Kernel
import proofs.«131374_j1760936591969_2_alg».proof.Proof.Gen.Kernel.Frame
import proofs.«131374_j1760936591969_2_alg».proof.Proof.Gen.KernelIdeal
import proofs.«131374_j1760936591969_2_alg».proof.Proof.Gen.KernelIdeal.Frame
import proofs.«131374_j1760936591969_2_alg».proof.Proof.Gen.ReferenceIdeal
import proofs.«131374_j1760936591969_2_alg».proof.Proof.Gen.Pre_finite_inputs
import proofs.«131374_j1760936591969_2_alg».proof.Proof.Gen.ReferenceIdeal.Run
import proofs.«131374_j1760936591969_2_alg».proof.Proof.Gen.ReferenceIdeal.Read
import proofs.«131374_j1760936591969_2_alg».proof.Proof.KernelValue
import proofs.«131374_j1760936591969_2_alg».proof.Proof.RefValue
import proofs.«131374_j1760936591969_2_alg».proof.Proof.SameSums
import Idealize.ShloMosaic.Adequacy
import Idealize.ShloMosaic.Init

noncomputable section

namespace Cert.Proof

open Idealize.ShloMosaic Idealize.SL.Sem

/-- The word-level kernel program runs to the end without a fault and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the same result: the node update of the
    message sums and the parameters, node by node. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, Cert.SameSums.sums_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
